-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : IVec S16384 32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg4
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S256x4096 : Shape := ⟨2, ![256, 4096]⟩
abbrev S256x1 : Shape := ⟨2, ![256, 1]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384, .f32⟩
  | .hbm, ⟨5, _⟩ => ⟨S16384x1, .f32⟩
  | .hbm, ⟨6, _⟩ => ⟨S16384x1, .i32⟩
  | .hbm, ⟨7, _⟩ => ⟨S16384x4096, .bf16⟩
  | .hbm, ⟨8, _⟩ => ⟨S8192x4096, .f32⟩
  | .hbm, ⟨9, _⟩ => ⟨S8192x4096, .bf16⟩
  | .hbm, ⟨10, _⟩ => ⟨S1x16384, .f32⟩
  | .hbm, ⟨11, _⟩ => ⟨S8192x16384, .f32⟩
  | .hbm, ⟨12, _⟩ => ⟨S4x2048x16384, .f32⟩
  | .local _ .vmem, ⟨0, _⟩ => ⟨S256x4096, .i32⟩
  | .local _ .vmem, ⟨1, _⟩ => ⟨S256x4096, .i32⟩
  | .local _ .vmem, ⟨2, _⟩ => ⟨S256x1, .f32⟩
  | .local _ .vmem, ⟨3, _⟩ => ⟨S256x1, .f32⟩
  | .local _ .vmem, ⟨4, _⟩ => ⟨S256x1, .i32⟩
  | .local _ .vmem, ⟨5, _⟩ => ⟨S256x1, .i32⟩
  | .local _ .vmem, ⟨6, _⟩ => ⟨S256x4096, .bf16⟩
  | .local _ .vmem, ⟨7, _⟩ => ⟨S256x4096, .bf16⟩
  | .local _ .vmem, ⟨8, _⟩ => ⟨S1024x4096, .bf16⟩
  | .local _ .vmem, ⟨9, _⟩ => ⟨S1024x4096, .bf16⟩
  | .local _ .vmem, ⟨10, _⟩ => ⟨S512x4096, .bf16⟩
  | .local _ .vmem, ⟨11, _⟩ => ⟨S512x4096, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16384_S16384x1 : S16384.ShapeCasts S16384x1
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .i32 = 32 ∨ (Rect.block (s := S16384x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x16384.size a
  hwx1_3 : ∀ i : grid1.Coords, EltTy.bits .f32 = 32 ∨ (Rect.block (s := S8192x16384) S1024x512.size (cc1_transform_3 i) (hinb1_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S4x2048x16384, .f32⟩
  | .hbm, ⟨14, _⟩ => ⟨S1x1x16384, .f32⟩
  | .hbm, ⟨15, _⟩ => ⟨S4x2048x16384, .f32⟩
  | .hbm, ⟨16, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The quantized linear layer as one function of its five arguments, entry by entry, on the extended reals.

  The weight is stored as integers `q[o, k]` with one zero point `zp[o]` and one scale `scale[o]` per output channel;
  the weight it stands for is `w[o, k] = (q[o, k] − zp[o]) · scale[o]`.  The layer sends an activation row `x[b, s, ·]`
  to `out[b, s, o] = Σ_k x[b, s, k] · w[o, k] + bias[o]`, the sum over the 4096 input features.
-/
import Idealize.ShloMosaic.PureOps.Ideal
import Idealize.ShloMosaic.Lib.ValueIdx

noncomputable section

open scoped BigOperators

namespace Cert.QLinear

open Idealize.ShloMosaic Idealize.ShloMosaic.ValueIdx

/-- The weight matrix's shape: 16384 output channels by 4096 input features. -/
abbrev SW : Shape := ⟨2, ![16384, 4096]⟩
/-- A per-channel vector's shape. -/
abbrev SV : Shape := ⟨1, ![16384]⟩
/-- The activations' shape. -/
abbrev SX : Shape := ⟨3, ![4, 2048, 4096]⟩
/-- The output's shape. -/
abbrev SO : Shape := ⟨3, ![4, 2048, 16384]⟩

/-- The weight an integer entry stands for: `(q[o, k] − zp[o]) · scale[o]`. -/
def deq (q : SW.Idx → BitVec 32) (scale : SV.Idx → EReal) (zp : SV.Idx → BitVec 32) (o : Fin 16384) (k : Fin 4096) : EReal :=
  (FloatOps.sitofp (F := Ideal) .f32 (q (ix2 o k)) - FloatOps.sitofp (F := Ideal) .f32 (zp (ix1 o))) * scale (ix1 o)

/-- One entry of the layer's output: `Σ_k x[b, s, k] · w[o, k] + bias[o]`. -/
def linAt (x : SX.Idx → EReal) (q : SW.Idx → BitVec 32) (scale : SV.Idx → EReal) (zp : SV.Idx → BitVec 32)
    (bias : SV.Idx → EReal) (b : Fin 4) (s : Fin 2048) (o : Fin 16384) : EReal :=
  (∑ k : Fin 4096, x (ix3 b s k) * deq q scale zp o k) + bias (ix1 o)

/-- The layer's output array. -/
def lin (x : SX.Idx → EReal) (q : SW.Idx → BitVec 32) (scale : SV.Idx → EReal) (zp : SV.Idx → BitVec 32)
    (bias : SV.Idx → EReal) : SO.Idx → EReal :=
  fun i => linAt x q scale zp bias (i 0) (i 1) (i 2)

end Cert.QLinear

end
-- ==== Proof.RefSide.lean ====
/-
  The reference computes the quantized linear layer.

  The reference turns the integer weight and the zero points into reals, spreads the zero points and the scales along
  the rows of the weight, subtracts and multiplies, contracts the activations with the result over the input
  features, and adds the bias spread over batch and sequence.  Read at an output entry `(b, s, o)`, each of these steps
  names one entry of its operands, and the composite is `Σ_k x[b, s, k] · (q[o, k] − zp[o]) · scale[o] + bias[o]`.
-/
import proofs.«160178_j63513976373289_2_alg».proof.Proof.Gen.ReferenceIdeal.Read
import proofs.«160178_j63513976373289_2_alg».proof.Proof.Spec

noncomputable section

open scoped BigOperators

namespace Cert.ReferenceIdeal.RefValue

open Cert.ReferenceIdeal Cert.ReferenceIdeal.Read Cert.QLinear
open Idealize.ShloMosaic Idealize.ShloMosaic.ValueIdx

/-- The activation entry the contraction reads at step `k` of output entry `i`. -/
theorem lidx_eq (b : Fin 4) (s : Fin 2048) (o : Fin 16384) (k : Fin 4096) : lidx_main_v8 (ix3 b s o) k = ix3 b s k :=
  funext fun a => Fin.ext (by match a with | ⟨0, _⟩ => rfl | ⟨1, _⟩ => rfl | ⟨2, _⟩ => rfl)

/-- The weight entry the contraction reads at step `k` of output entry `i`. -/
theorem ridx_eq (b : Fin 4) (s : Fin 2048) (o : Fin 16384) (k : Fin 4096) : ridx_main_v8 (ix3 b s o) k = ix2 o k :=
  funext fun a => Fin.ext (by match a with | ⟨0, _⟩ => rfl | ⟨1, _⟩ => rfl)

/-- The zero point spread along a weight row is the row's channel's. -/
theorem zp_idx_eq (o : Fin 16384) (k : Fin 4096) : idx_main_v2 (idx_main_v3 (ix2 o k)) = ix1 o :=
  funext fun a => Fin.ext (by match a with | ⟨0, _⟩ => rfl)

/-- The scale spread along a weight row is the row's channel's. -/
theorem scale_idx_eq (o : Fin 16384) (k : Fin 4096) : idx_main_v5 (idx_main_v6 (ix2 o k)) = ix1 o :=
  funext fun a => Fin.ext (by match a with | ⟨0, _⟩ => rfl)

/-- The bias spread over batch and sequence is the output channel's. -/
theorem bias_idx_eq (b : Fin 4) (s : Fin 2048) (o : Fin 16384) : idx_main_v9 (idx_main_v10 (ix3 b s o)) = ix1 o :=
  funext fun a => Fin.ext (by match a with | ⟨0, _⟩ => rfl)

/-- The reference's weight at `(o, k)` is the dequantized entry. -/
theorem weight_apply (x1 : (⟨S16384x4096, .i32⟩ : BufTy).Contents (Elt Ideal)) (x2 : (⟨S16384, .f32⟩ : BufTy).Contents (Elt Ideal))
    (x3 : (⟨S16384, .i32⟩ : BufTy).Contents (Elt Ideal)) (o : Fin 16384) (k : Fin 4096) :
    val_main_v7 (F := Ideal) x1 x2 x3 (ix2 o k) = deq x1 x2 x3 o k := by
  rw [val_main_v7_apply, val_main_v4_apply, val_main_v0_apply, val_main_v3_apply, val_main_v2_apply, val_main_v1_apply,
    val_main_v6_apply, val_main_v5_apply, zp_idx_eq, scale_idx_eq]
  rfl

/-- The reference's result is the layer's output array. -/
theorem result_eq (x0 : (⟨S4x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S16384, .i32⟩ : BufTy).Contents (Elt Ideal))
    (x4 : (⟨S16384, .f32⟩ : BufTy).Contents (Elt Ideal)) :
    val_main_v11 (F := Ideal) x0 x1 x2 x3 x4 = lin x0 x1 x2 x3 x4 := by
  funext i
  obtain ⟨b, s, o, rfl⟩ : ∃ (b : Fin 4) (s : Fin 2048) (o : Fin 16384), i = ix3 b s o := ⟨i 0, i 1, i 2, eq_ix3 i⟩
  rw [val_main_v11_apply, val_main_v8_apply, val_main_v10_apply, val_main_v9_apply, bias_idx_eq]
  show (∑ k : Fin 4096, _) + _ = linAt x0 x1 x2 x3 x4 b s o
  unfold linAt
  refine congrArg (· + x4 (ix1 o)) (Finset.sum_congr rfl fun k _ => ?_)
  rw [lidx_eq, ridx_eq, weight_apply]

end Cert.ReferenceIdeal.RefValue

end
-- ==== Proof.Run.lean ====
/-
  The idealized kernel program, run once more with its result array named.

  The program is five stretches in a row: two host reshapes, the dequantization region, three host operations (a
  reshape of the activations, their change of format, a reshape of the bias), the matrix-product region, and a final
  host reshape.  The contents of every buffer at each boundary are a fold of these stretches over the launch memory;
  the last of them, at the result buffer, is what every execution ends with.  The statement below is the frame of the
  program with that one extra equation: the result buffer ends at the last boundary's contents.
-/
import proofs.«160178_j63513976373289_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents
    the last boundary of the fold gives it, and the five argument arrays end as launched. -/
theorem run_named : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Hand

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.Compose.lean ====
/-
  The two kernels' whole-array functions, and their composite through the host reshapes.

  The first kernel dequantizes: it takes the integer weight `q` and, as one-column matrices, the scales and the zero
  points, and writes `(q[o, k] − zp[o, 0]) · scale[o, 0]` at `(o, k)`.  The second takes the activations flattened to a
  matrix of `4 · 2048` rows, the dequantized weight and the bias as a one-row matrix, and writes
  `Σ_k x[r, k] · w[o, k] + bias[0, o]` at `(r, o)`.  Between them the program only reshapes: a vector to a column or
  to a row, the activations `[4, 2048, 4096]` to `[8192, 4096]` (row `r = b · 2048 + s`), and the product back to
  `[4, 2048, 16384]`.  Read at `(b, s, o)` the composite is the layer's output entry.
-/
import Idealize.ShloMosaic.Lib.Pipeline.Value
import Idealize.ShloMosaic.Lib.ValueIdx
import Idealize.ShloMosaic.Lib.ValueLayout
import proofs.«160178_j63513976373289_2_alg».proof.Proof.Spec
import proofs.«160178_j63513976373289_2_alg».proof.Proof.LibColumns

noncomputable section

open scoped BigOperators

namespace Cert.QLinear

open Idealize.ShloMosaic Idealize.ShloMosaic.ValueIdx

/-- The activations flattened: `4 · 2048` rows of 4096 features. -/
abbrev SXF : Shape := ⟨2, ![8192, 4096]⟩
/-- A per-channel vector as a one-column matrix. -/
abbrev SC : Shape := ⟨2, ![16384, 1]⟩
/-- A per-channel vector as a one-row matrix. -/
abbrev SR : Shape := ⟨2, ![1, 16384]⟩
/-- The product before it is folded back to three axes. -/
abbrev SOF : Shape := ⟨2, ![8192, 16384]⟩

/-- What the dequantization kernel leaves in the weight array, as one function of its three operands. -/
def deqCols (q : SW.Idx → BitVec 32) (sc : SC.Idx → EReal) (zc : SC.Idx → BitVec 32) : SW.Idx → EReal :=
  fun i => (FloatOps.sitofp (F := Ideal) .f32 (q i) - FloatOps.sitofp (F := Ideal) .f32 (zc (ix2 (i 0) 0))) * sc (ix2 (i 0) 0)

theorem deqCols_apply (q : SW.Idx → BitVec 32) (sc : SC.Idx → EReal) (zc : SC.Idx → BitVec 32) (o : Fin 16384) (k : Fin 4096) :
    deqCols q sc zc (ix2 o k)
      = (FloatOps.sitofp (F := Ideal) .f32 (q (ix2 o k)) - FloatOps.sitofp (F := Ideal) .f32 (zc (ix2 o 0))) * sc (ix2 o 0) := rfl

/-- What the matrix-product kernel leaves in its output array, as one function of its three operands. -/
def mmBias (xb : SXF.Idx → EReal) (wb : SW.Idx → EReal) (br : SR.Idx → EReal) : SOF.Idx → EReal :=
  fun i => (∑ k : Fin 4096, xb (ix2 (i 0) k) * wb (ix2 (i 1) k)) + br (ix2 0 (i 1))

theorem mmBias_apply (xb : SXF.Idx → EReal) (wb : SW.Idx → EReal) (br : SR.Idx → EReal) (r : Fin 8192) (o : Fin 16384) :
    mmBias xb wb br (ix2 r o) = (∑ k : Fin 4096, xb (ix2 r k) * wb (ix2 o k)) + br (ix2 0 o) := rfl

/-- Row `b · 2048 + s` of the flattened activations. -/
def flatRow (b : Fin 4) (s : Fin 2048) : Fin 8192 := ⟨b.val * 2048 + s.val, by omega⟩

/-- The flattened activations at row `b · 2048 + s` are the activations at `(b, s)`. -/
theorem flat_apply (x : SX.Idx → EReal) (hx : SX.ShapeCasts SXF) (b : Fin 4) (s : Fin 2048) (k : Fin 4096) :
    shapeCast SXF x hx (ix2 (flatRow b s) k) = x (ix3 b s k) :=
  shapeCast_apply x hx (ix2 (flatRow b s) k) (ix3 b s k) (by
    rw [Shape.rowMajor_val_two, Shape.rowMajor_val_three]
    show (b.val * 2048 + s.val) * 4096 + k.val = (b.val * 2048 + s.val) * 4096 + k.val
    rfl)

/-- The product folded back to three axes at `(b, s, o)` is the product at row `b · 2048 + s`, column `o`. -/
theorem unflat_apply (y : SOF.Idx → EReal) (ho : SOF.ShapeCasts SO) (b : Fin 4) (s : Fin 2048) (o : Fin 16384) :
    shapeCast SO y ho (ix3 b s o) = y (ix2 (flatRow b s) o) :=
  shapeCast_apply y ho (ix3 b s o) (ix2 (flatRow b s) o) (by
    rw [Shape.rowMajor_val_two, Shape.rowMajor_val_three]
    show (b.val * 2048 + s.val) * 16384 + o.val = (b.val * 2048 + s.val) * 16384 + o.val
    rfl)

/-- The dequantized weight from the scales and zero points as columns is the layer's weight. -/
theorem deqCols_cols (q : SW.Idx → BitVec 32) (scale : SV.Idx → EReal) (zp : SV.Idx → BitVec 32)
    (hs : SV.ShapeCasts SC) (hz : SV.ShapeCasts SC) (o : Fin 16384) (k : Fin 4096) :
    deqCols q (shapeCast SC scale hs) (shapeCast SC zp hz) (ix2 o k) = deq q scale zp o k := by
  rw [deqCols_apply, Cert.LibColumns.shapeCast_vec_col, Cert.LibColumns.shapeCast_vec_col]
  rfl

/-- The composite of the two kernels through the reshapes is the layer. -/
theorem compose (x : SX.Idx → EReal) (q : SW.Idx → BitVec 32) (scale : SV.Idx → EReal) (zp : SV.Idx → BitVec 32)
    (bias : SV.Idx → EReal) (hx : SX.ShapeCasts SXF) (hs : SV.ShapeCasts SC) (hz : SV.ShapeCasts SC)
    (hb : SV.ShapeCasts SR) (ho : SOF.ShapeCasts SO) :
    shapeCast SO (mmBias (shapeCast SXF x hx) (deqCols q (shapeCast SC scale hs) (shapeCast SC zp hz)) (shapeCast SR bias hb)) ho
      = lin x q scale zp bias := by
  funext i
  obtain ⟨b, s, o, rfl⟩ : ∃ (b : Fin 4) (s : Fin 2048) (o : Fin 16384), i = ix3 b s o := ⟨i 0, i 1, i 2, eq_ix3 i⟩
  rw [unflat_apply, mmBias_apply, shapeCast_a_1a_apply]
  show _ = linAt x q scale zp bias b s o
  unfold linAt
  refine congrArg (· + bias (ix1 o)) (Finset.sum_congr rfl fun k _ => ?_)
  rw [flat_apply, deqCols_cols]

end Cert.QLinear

end
-- ==== Proof.Dequant.lean ====
/-
  The dequantization kernel's output array.

  The kernel runs over 64 grid points; point `t` takes rows `256 t … 256 t + 255` of the integer weight together with
  the same rows of the scale and zero-point columns, and writes back those rows of the output:
  `(q[o, k] − zp[o, 0]) · scale[o, 0]`, the narrowing to the storage format being the identity on the extended reals.
  The 64 row blocks tile the array, so after the last point the array is that function of the operands everywhere.
-/
import proofs.«160178_j63513976373289_2_alg».proof.Proof.Gen.KernelIdeal.Frame
import proofs.«160178_j63513976373289_2_alg».proof.Proof.Compose
import Idealize.ShloMosaic.Lib.Pipeline.Value

set_option maxRecDepth 16384

noncomputable section

namespace Cert.KernelIdeal.Hand

open Cert.KernelIdeal Cert.KernelIdeal.Gen Cert.QLinear
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- One entry of the block the kernel's body stores, from the three blocks it loads: the integer minus its row's zero
    point, times its row's scale. -/
theorem deq_payload (x0 : Vec Ideal S256x4096 .i32) (x1 : Vec Ideal S256x1 .f32) (x2 : Vec Ideal S256x1 .i32)
    (p : Fin 256) (k : Fin 4096) :
    k0_pay1 x0 x1 x2 (ix2 p k)
      = (FloatOps.sitofp (F := Ideal) .f32 (x0 (ix2 p k)) - FloatOps.sitofp (F := Ideal) .f32 (x2 (ix2 p 0))) * x1 (ix2 p 0) := by
  unfold k0_pay1
  show (FloatOps.sitofp (F := Ideal) .f32 (x0 (ix2 p k))
      - broadcastTo S256x4096 (sitofp (F := Ideal) .f32 (shapeCast S256x1 x2 _)) _ (ix2 p k))
      * broadcastTo S256x4096 (shapeCast S256x1 x1 _) _ (ix2 p k) = _
  rw [Cert.LibColumns.broadcastTo_col, Cert.LibColumns.broadcastTo_col, shapeCast_self, shapeCast_self]
  rfl

/-- Where each window's block sits at grid point `t`: block row `t`, block column 0, for all four windows. -/
theorem deq_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` is row `256 t + p` of the array. -/
def deqRow (t : Fin cfg0.N) (p : Fin 256) : Fin 16384 :=
  ⟨t.val * 256 + p.val, by
    have h : t.val < 64 := lt_of_lt_of_eq t.isLt (show cfg0.N = 64 from N_0)
    omega⟩

/-- An entry of a block of the integer weight, in the array. -/
theorem deq_emb0 (t : Fin cfg0.N) (p : Fin 256) (k : Fin 4096) :
    ((cfg0.win 0).blk t).view.emb (ix2 p k) = ix2 (deqRow t p) k := by
  obtain ⟨e0, e1, -⟩ := deq_index t
  funext a; apply Fin.ext
  match a with
  | ⟨0, _⟩ => show win0_0.index t (0 : Fin 2) * 256 + 1 * p.val = t.val * 256 + p.val; rw [e0]; omega
  | ⟨1, _⟩ => show win0_0.index t (1 : Fin 2) * 4096 + 1 * k.val = k.val; rw [e1]; omega

/-- An entry of a block of the scale column, in the array. -/
theorem deq_emb1 (t : Fin cfg0.N) (p : Fin 256) :
    ((cfg0.win 1).blk t).view.emb (ix2 p (0 : Fin 1)) = ix2 (deqRow t p) (0 : Fin 1) := by
  obtain ⟨-, -, e0, e1, -⟩ := deq_index t
  funext a; apply Fin.ext
  match a with
  | ⟨0, _⟩ => show win0_1.index t (0 : Fin 2) * 256 + 1 * p.val = t.val * 256 + p.val; rw [e0]; omega
  | ⟨1, _⟩ => show win0_1.index t (1 : Fin 2) * 1 + 1 * 0 = 0; rw [e1]

/-- An entry of a block of the zero-point column, in the array. -/
theorem deq_emb2 (t : Fin cfg0.N) (p : Fin 256) :
    ((cfg0.win 2).blk t).view.emb (ix2 p (0 : Fin 1)) = ix2 (deqRow t p) (0 : Fin 1) := by
  obtain ⟨-, -, -, -, e0, e1, -⟩ := deq_index t
  funext a; apply Fin.ext
  match a with
  | ⟨0, _⟩ => show win0_2.index t (0 : Fin 2) * 256 + 1 * p.val = t.val * 256 + p.val; rw [e0]; omega
  | ⟨1, _⟩ => show win0_2.index t (1 : Fin 2) * 1 + 1 * 0 = 0; rw [e1]

/-- An entry of a block of the output, in the array. -/
theorem deq_emb3 (t : Fin cfg0.N) (p : Fin 256) (k : Fin 4096) :
    ((cfg0.win 3).blk t).view.emb (ix2 p k) = ix2 (deqRow t p) k := by
  obtain ⟨-, -, -, -, -, -, e0, e1⟩ := deq_index t
  funext a; apply Fin.ext
  match a with
  | ⟨0, _⟩ => show win0_3.index t (0 : Fin 2) * 256 + 1 * p.val = t.val * 256 + p.val; rw [e0]; omega
  | ⟨1, _⟩ => show win0_3.index t (1 : Fin 2) * 4096 + 1 * k.val = k.val; rw [e1]; omega

variable (V : (c : Dev nD) → (b : Ref sig .tc) → Buf (Elt Ideal) ((c : Thread nD τ).loc b))

/-- What grid point `t` writes back is block `t` of the dequantized weight. -/
theorem deq_flushed (c : Dev nD) (t : Fin cfg0.N) :
    (dat0 V c).flushed 3 t
      = ((cfg0.win 3).blk t).view.read (Elt Ideal) (deqCols (V c main_arg1) (V c main_v0) (V c main_v1)) := by
  show (cfg0.win 3).cut (grid0.coords t) ((dat0 V c).after 3 t) = _
  rw [after0_3]
  unfold out0_3
  rw [View.canon_unit_zero zero_offsets]
  simp only [View.ld_unit_zero (S := S256x4096) zero_offsets, View.ld_unit_zero (S := S256x1) zero_offsets]
  funext j
  obtain ⟨p, k, rfl⟩ : ∃ (p : Fin 256) (k : Fin 4096), j = ix2 p k := ⟨j 0, j 1, eq_ix2 j⟩
  show k0_pay1 (iblk0 V c 0 t) (iblk0 V c 1 t) (iblk0 V c 2 t) (ix2 p k)
    = deqCols (V c main_arg1) (V c main_v0) (V c main_v1) (((cfg0.win 3).blk t).view.emb (ix2 p k))
  refine (deq_payload _ _ _ p k).trans ?_
  rw [deq_emb3, deqCols_apply]
  have h0 : iblk0 V c 0 t (ix2 p k) = V c main_arg1 (ix2 (deqRow t p) k) := by
    show V c main_arg1 (((cfg0.win 0).blk t).view.emb (ix2 p k)) = _
    rw [deq_emb0]
  have h1 : iblk0 V c 1 t (ix2 p (0 : Fin 1)) = V c main_v0 (ix2 (deqRow t p) (0 : Fin 1)) := by
    show V c main_v0 (((cfg0.win 1).blk t).view.emb (ix2 p (0 : Fin 1))) = _
    rw [deq_emb1]
  have h2 : iblk0 V c 2 t (ix2 p (0 : Fin 1)) = V c main_v1 (ix2 (deqRow t p) (0 : Fin 1)) := by
    show V c main_v1 (((cfg0.win 2).blk t).view.emb (ix2 p (0 : Fin 1))) = _
    rw [deq_emb2]
  rw [h0, h1, h2]

/-- Every entry of the weight array lies in the block of the grid point its row belongs to. -/
theorem deq_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨(i 0).val / 256, by show _ < grid0.N; rw [N_0]; omega⟩
  obtain ⟨-, -, -, -, -, -, e0, e1⟩ := deq_index t
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e0]; show (i 0).val / 256 * 256 ≤ (i 0).val ∧ (i 0).val < (i 0).val / 256 * 256 + 256; omega
  | ⟨1, _⟩ =>
    show win0_3.index t (1 : Fin 2) * 4096 ≤ (i 1).val ∧ (i 1).val < win0_3.index t (1 : Fin 2) * 4096 + 4096
    rw [e1]; omega

/-- After its last grid point the kernel's output array is the dequantized weight. -/
theorem deq_final (c : Dev nD) :
    (dat0 V c).arrAt 3 cfg0.N = deqCols (V c main_arg1) (V c main_v0) (V c main_v1) :=
  (dat0 V c).arrAt_eq_of_cover 3 (deqCols (V c main_arg1) (V c main_v0) (V c main_v1))
    (fun t _ => deq_flushed V c t) deq_cover

end Cert.KernelIdeal.Hand

end
-- ==== Proof.Matmul.lean ====
/-
  The matrix-product kernel's output array.

  The kernel runs over an 8 × 32 grid; point `(i, j)` takes rows `1024 i …` of the activations, rows `512 j …` of the
  weight (each over all 4096 features) and columns `512 j …` of the bias row, and writes back the `1024 × 512` block at
  `(i, j)` of the output: at `(r, o)` the sum over the 4096 features of activation times weight — the matrix unit fed
  with a zero accumulator — plus the bias at `o`.  The 256 blocks tile the output, so after the last point the array
  is that function of the operands everywhere.
-/
import proofs.«160178_j63513976373289_2_alg».proof.Proof.Gen.KernelIdeal.Frame
import proofs.«160178_j63513976373289_2_alg».proof.Proof.Compose
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.QLinear
open Idealize.ShloMosaic Idealize.ShloMosaic.TcCoe Idealize.SL.Sem Idealize.ShloMosaic.ValueIdx
open Idealize.ShloMosaic.Pipeline (Dat)

theorem zero_offsets' : (![0, 0] : Fin 2 → Nat) = fun _ => 0 := funext fun a => by fin_cases a <;> rfl

/-- The left operand's row coordinate at an output entry is the entry's row … -/
theorem mm_lhs0 (j : S1024x512.Idx) (κ : dot_S1024x4096_S512x4096_S1024x512_1_1_0_0_n_n.contr.Idx) :
    (dot_S1024x4096_S512x4096_S1024x512_1_1_0_0_n_n.lhsIdx j κ 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- … and the right operand's row coordinate is the entry's column. -/
theorem mm_rhs0 (j : S1024x512.Idx) (κ : dot_S1024x4096_S512x4096_S1024x512_1_1_0_0_n_n.contr.Idx) :
    (dot_S1024x4096_S512x4096_S1024x512_1_1_0_0_n_n.rhsIdx j κ 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- The product's contraction reads the left block at `(p, k)` … -/
theorem mm_lhs (p : Fin 1024) (q : Fin 512) (k : Fin 4096) :
    dot_S1024x4096_S512x4096_S1024x512_1_1_0_0_n_n.lhsIdx (ix2 p q)
      ((contrEquiv1 dot_S1024x4096_S512x4096_S1024x512_1_1_0_0_n_n 4096 rfl rfl).symm k) = ix2 p k :=
  funext fun a => Fin.ext (by
    match a with
    | ⟨0, _⟩ => exact mm_lhs0 _ _
    | ⟨1, _⟩ =>
      exact (dot_S1024x4096_S512x4096_S1024x512_1_1_0_0_n_n.lhsIdx_val_of_single rfl _ _).trans
        (contrEquiv1_symm_val dot_S1024x4096_S512x4096_S1024x512_1_1_0_0_n_n 4096 rfl rfl k))

/-- … and the right block at `(q, k)`. -/
theorem mm_rhs (p : Fin 1024) (q : Fin 512) (k : Fin 4096) :
    dot_S1024x4096_S512x4096_S1024x512_1_1_0_0_n_n.rhsIdx (ix2 p q)
      ((contrEquiv1 dot_S1024x4096_S512x4096_S1024x512_1_1_0_0_n_n 4096 rfl rfl).symm k) = ix2 q k :=
  funext fun a => Fin.ext (by
    match a with
    | ⟨0, _⟩ => exact mm_rhs0 _ _
    | ⟨1, _⟩ =>
      exact (dot_S1024x4096_S512x4096_S1024x512_1_1_0_0_n_n.rhsIdx_val_of_single rfl _ _).trans
        (contrEquiv1_symm_val dot_S1024x4096_S512x4096_S1024x512_1_1_0_0_n_n 4096 rfl rfl k))

/-- One entry of the block the kernel's body stores, from the three blocks it loads: row `p` of the activation block
    against row `q` of the weight block, summed over the features, plus the bias at `q`. -/
theorem mm_payload (x0 : S1024x4096.Idx → EReal) (x1 : S512x4096.Idx → EReal) (x2 : S1x512.Idx → EReal)
    (p : Fin 1024) (q : Fin 512) :
    (k1_pay1 (F := Ideal) x0 x1 x2 (ix2 p q) : EReal) = (∑ k : Fin 4096, x0 (ix2 p k) * x1 (ix2 q k)) + x2 (ix2 0 q) := by
  unfold k1_pay1
  show (FloatOps.matmul (F := Ideal) dot_S1024x4096_S512x4096_S1024x512_1_1_0_0_n_n none
        (shapeCast S1024x4096 x0 shapeCasts_S1024x4096_S1024x4096 : FVec Ideal S1024x4096 .bf16)
        (shapeCast S512x4096 x1 shapeCasts_S512x4096_S512x4096 : FVec Ideal S512x4096 .bf16)
        (constant (F := Ideal) S1024x512 .f32 0x00000000#32) (ix2 p q) : EReal)
      + broadcastTo S1024x512 (shapeCast S1x512 x2 shapeCasts_S1x512_S1x512) broadcasts_S1x512_S1024x512 (ix2 p q) = _
  rw [Ideal.matmul_constant_zero_apply, broadcastTo_1b_ab_apply, shapeCast_self, shapeCast_self, shapeCast_self,
    ← Equiv.sum_comp (contrEquiv1 dot_S1024x4096_S512x4096_S1024x512_1_1_0_0_n_n 4096 rfl rfl).symm]
  refine congrArg (· + x2 (ix2 0 q)) (Finset.sum_congr rfl fun k _ => ?_)
  rw [mm_lhs p q k, mm_rhs p q k]

/-- Where each window's block sits at grid point `t = 32 i + j`: the activations at block row `i`, the weight at block
    row `j`, the bias at block column `j`, the output at block `(i, j)`. -/
theorem mm_index : ∀ t : Fin cfg1.N,
    win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 2) = 0 ∧ win1_2.index t (1 : Fin 2) = t.val % 32
    ∧ win1_3.index t (0 : Fin 2) = t.val / 32 ∧ win1_3.index t (1 : Fin 2) = t.val % 32 :=
  (by decide +kernel : ∀ t : Fin grid1.N, _)

/-- Row `p` of the block at grid point `t` is row `1024 (t / 32) + p` of the output and of the activations. -/
def mmRow (t : Fin cfg1.N) (p : Fin 1024) : Fin 8192 :=
  ⟨t.val / 32 * 1024 + p.val, by
    have h : t.val < 256 := lt_of_lt_of_eq t.isLt (show cfg1.N = 256 from N_1)
    omega⟩

/-- Column `q` of the block at grid point `t` is column `512 (t % 32) + q` of the output, and that row of the weight. -/
def mmCol (t : Fin cfg1.N) (q : Fin 512) : Fin 16384 :=
  ⟨t.val % 32 * 512 + q.val, by omega⟩

/-- An entry of a block of the activations, in the array. -/
theorem mm_emb0 (t : Fin cfg1.N) (p : Fin 1024) (k : Fin 4096) :
    ((cfg1.win 0).blk t).view.emb (ix2 p k) = ix2 (mmRow t p) k := by
  obtain ⟨e0, e1, -⟩ := mm_index t
  funext a; apply Fin.ext
  match a with
  | ⟨0, _⟩ => show win1_0.index t (0 : Fin 2) * 1024 + 1 * p.val = t.val / 32 * 1024 + p.val; rw [e0]; omega
  | ⟨1, _⟩ => show win1_0.index t (1 : Fin 2) * 4096 + 1 * k.val = k.val; rw [e1]; omega

/-- An entry of a block of the weight, in the array. -/
theorem mm_emb1 (t : Fin cfg1.N) (q : Fin 512) (k : Fin 4096) :
    ((cfg1.win 1).blk t).view.emb (ix2 q k) = ix2 (mmCol t q) k := by
  obtain ⟨-, -, e0, e1, -⟩ := mm_index t
  funext a; apply Fin.ext
  match a with
  | ⟨0, _⟩ => show win1_1.index t (0 : Fin 2) * 512 + 1 * q.val = t.val % 32 * 512 + q.val; rw [e0]; omega
  | ⟨1, _⟩ => show win1_1.index t (1 : Fin 2) * 4096 + 1 * k.val = k.val; rw [e1]; omega

/-- An entry of a block of the bias row, in the array. -/
theorem mm_emb2 (t : Fin cfg1.N) (q : Fin 512) :
    ((cfg1.win 2).blk t).view.emb (ix2 (0 : Fin 1) q) = ix2 (0 : Fin 1) (mmCol t q) := by
  obtain ⟨-, -, -, -, e0, e1, -⟩ := mm_index t
  funext a; apply Fin.ext
  match a with
  | ⟨0, _⟩ => show win1_2.index t (0 : Fin 2) * 1 + 1 * 0 = 0; rw [e0]
  | ⟨1, _⟩ => show win1_2.index t (1 : Fin 2) * 512 + 1 * q.val = t.val % 32 * 512 + q.val; rw [e1]; omega

/-- An entry of a block of the output, in the array. -/
theorem mm_emb3 (t : Fin cfg1.N) (p : Fin 1024) (q : Fin 512) :
    ((cfg1.win 3).blk t).view.emb (ix2 p q) = ix2 (mmRow t p) (mmCol t q) := by
  obtain ⟨-, -, -, -, -, -, e0, e1⟩ := mm_index t
  funext a; apply Fin.ext
  match a with
  | ⟨0, _⟩ => show win1_3.index t (0 : Fin 2) * 1024 + 1 * p.val = t.val / 32 * 1024 + p.val; rw [e0]; omega
  | ⟨1, _⟩ => show win1_3.index t (1 : Fin 2) * 512 + 1 * q.val = t.val % 32 * 512 + q.val; rw [e1]; omega

variable (V : (c : Dev nD) → (b : Ref sig .tc) → Buf (Elt Ideal) ((c : Thread nD τ).loc b))

/-- What grid point `t` writes back is its block of the product plus bias. -/
theorem mm_flushed (c : Dev nD) (t : Fin cfg1.N) :
    (dat1 V c).flushed 3 t
      = ((cfg1.win 3).blk t).view.read (Elt Ideal) (mmBias (V c main_v4) (V c main_v2) (V c main_v5)) := by
  show (cfg1.win 3).cut (grid1.coords t) ((dat1 V c).after 3 t) = _
  rw [after1_3]
  unfold out1_3
  rw [View.canon_unit_zero zero_offsets']
  simp only [View.ld_unit_zero (S := S1024x4096) zero_offsets', View.ld_unit_zero (S := S512x4096) zero_offsets',
    View.ld_unit_zero (S := S1x512) zero_offsets']
  funext j
  obtain ⟨p, q, rfl⟩ : ∃ (p : Fin 1024) (q : Fin 512), j = ix2 p q := ⟨j 0, j 1, eq_ix2 j⟩
  show k1_pay1 (iblk1 V c 0 t) (iblk1 V c 1 t) (iblk1 V c 2 t) (ix2 p q)
    = mmBias (V c main_v4) (V c main_v2) (V c main_v5) (((cfg1.win 3).blk t).view.emb (ix2 p q))
  refine (mm_payload _ _ _ p q).trans ?_
  rw [mm_emb3, mmBias_apply]
  have h2 : iblk1 V c 2 t (ix2 (0 : Fin 1) q) = V c main_v5 (ix2 (0 : Fin 1) (mmCol t q)) := by
    show V c main_v5 (((cfg1.win 2).blk t).view.emb (ix2 (0 : Fin 1) q)) = _
    rw [mm_emb2]
  rw [h2]
  refine congrArg (· + V c main_v5 (ix2 (0 : Fin 1) (mmCol t q))) (Finset.sum_congr rfl fun k _ => ?_)
  have h0 : iblk1 V c 0 t (ix2 p k) = V c main_v4 (ix2 (mmRow t p) k) := by
    show V c main_v4 (((cfg1.win 0).blk t).view.emb (ix2 p k)) = _
    rw [mm_emb0]
  have h1 : iblk1 V c 1 t (ix2 q k) = V c main_v2 (ix2 (mmCol t q) k) := by
    show V c main_v2 (((cfg1.win 1).blk t).view.emb (ix2 q k)) = _
    rw [mm_emb1]
  rw [h0, h1]

/-- Every entry of the output lies in the block of the grid point its row block and column block name. -/
theorem mm_cover (i : S8192x16384.Idx) :
    ∃ t : Fin cfg1.N, (cfg1.win 3).flush t = true ∧ i ∈ ((cfg1.win 3).blk t).view.set := by
  have hi0 : (i 0).val < 8192 := (i 0).isLt
  have hi1 : (i 1).val < 16384 := (i 1).isLt
  let t : Fin cfg1.N := ⟨(i 0).val / 1024 * 32 + (i 1).val / 512, by show _ < grid1.N; rw [N_1]; omega⟩
  obtain ⟨-, -, -, -, -, -, e0, e1⟩ := mm_index t
  refine ⟨t, flush1_3 t, ?_⟩
  show i ∈ ((View.whole main_v6).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e0]
    show ((i 0).val / 1024 * 32 + (i 1).val / 512) / 32 * 1024 ≤ (i 0).val
      ∧ (i 0).val < ((i 0).val / 1024 * 32 + (i 1).val / 512) / 32 * 1024 + 1024
    omega
  | ⟨1, _⟩ =>
    show win1_3.index t (1 : Fin 2) * 512 ≤ (i 1).val ∧ (i 1).val < win1_3.index t (1 : Fin 2) * 512 + 512
    rw [e1]
    show ((i 0).val / 1024 * 32 + (i 1).val / 512) % 32 * 512 ≤ (i 1).val
      ∧ (i 1).val < ((i 0).val / 1024 * 32 + (i 1).val / 512) % 32 * 512 + 512
    omega

/-- After its last grid point the kernel's output array is the product plus bias. -/
theorem mm_final (c : Dev nD) :
    (dat1 V c).arrAt 3 cfg1.N = mmBias (V c main_v4) (V c main_v2) (V c main_v5) :=
  (dat1 V c).arrAt_eq_of_cover 3 (mmBias (V c main_v4) (V c main_v2) (V c main_v5))
    (fun t _ => mm_flushed V c t) mm_cover

end Cert.KernelIdeal.Hand

end
-- ==== Proof.Value.lean ====
/-
  The idealized kernel program computes the quantized linear layer.

  The buffer contents at each boundary of the program are read one stretch at a time.  Before the first kernel the two
  host reshapes have made columns of the scales and of the zero points; the kernel leaves the dequantized weight.  The
  next three host operations flatten the activations to `4 · 2048` rows (and change their format, which is the
  identity on the extended reals) and make a row of the bias, leaving the weight alone; the second kernel leaves the
  product plus bias; the last reshape folds it back to three axes.  The composite is the layer's output array.
-/
import proofs.«160178_j63513976373289_2_alg».proof.Proof.Run
import proofs.«160178_j63513976373289_2_alg».proof.Proof.Dequant
import proofs.«160178_j63513976373289_2_alg».proof.Proof.Matmul
import Idealize.ShloMosaic.Lib.StableHlo.Run

set_option maxRecDepth 16384

noncomputable section

namespace Cert.KernelIdeal.Hand

open Cert.KernelIdeal Cert.KernelIdeal.Gen Cert.QLinear
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## Before the dequantization kernel -/

/-- The integer weight is as launched. -/
theorem entry0_q (c : Dev nD) : V1 m ρ c main_arg1 = m ((c : Thread nD τ).loc main_arg1) := by
  show StableHlo.after hostOps0 (W0 m ρ c) (Proc.devRef .tc main_arg1) = _
  after_results

/-- The scales have become a column. -/
theorem entry0_scale (c : Dev nD) :
    V1 m ρ c main_v0 = shapeCast S16384x1 (m ((c : Thread nD τ).loc main_arg2)) shapeCasts_S16384_S16384x1 := by
  show StableHlo.after hostOps0 (W0 m ρ c) (Proc.devRef .tc main_v0) = _
  after_results
  rfl

/-- The zero points have become a column. -/
theorem entry0_zp (c : Dev nD) :
    V1 m ρ c main_v1 = shapeCast S16384x1 (m ((c : Thread nD τ).loc main_arg3)) shapeCasts_S16384_S16384x1 := by
  show StableHlo.after hostOps0 (W0 m ρ c) (Proc.devRef .tc main_v1) = _
  after_results
  rfl

/-! ## After it -/

/-- The weight array holds the dequantized weight. -/
theorem weight_after (c : Dev nD) :
    W2 m ρ c (Proc.devRef .tc main_v2)
      = deqCols (m ((c : Thread nD τ).loc main_arg1))
          (shapeCast S16384x1 (m ((c : Thread nD τ).loc main_arg2)) shapeCasts_S16384_S16384x1)
          (shapeCast S16384x1 (m ((c : Thread nD τ).loc main_arg3)) shapeCasts_S16384_S16384x1) := by
  refine (W2_arr m ρ c 3).trans ?_
  rw [deq_final (V1 m ρ) c, entry0_q, entry0_scale, entry0_zp]

/-- The activations are as launched. -/
theorem x_after (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

/-- The bias is as launched. -/
theorem bias_after (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-! ## Before the matrix-product kernel -/

/-- The activations flattened; their change of format is the identity. -/
theorem entry1_x (c : Dev nD) :
    V3 m ρ c main_v4 = shapeCast S8192x4096 (m ((c : Thread nD τ).loc main_arg0)) shapeCasts_S4x2048x4096_S8192x4096 := by
  show StableHlo.after hostOps1 (W2 m ρ c) (Proc.devRef .tc main_v4) = _
  after_results
  rw [x_after]
  rfl

/-- The weight array is what the first kernel left. -/
theorem entry1_w (c : Dev nD) : V3 m ρ c main_v2 = W2 m ρ c (Proc.devRef .tc main_v2) := by
  show StableHlo.after hostOps1 (W2 m ρ c) (Proc.devRef .tc main_v2) = _
  after_results

/-- The bias has become a row. -/
theorem entry1_bias (c : Dev nD) :
    V3 m ρ c main_v5 = shapeCast S1x16384 (m ((c : Thread nD τ).loc main_arg4)) shapeCasts_S16384_S1x16384 := by
  show StableHlo.after hostOps1 (W2 m ρ c) (Proc.devRef .tc main_v5) = _
  after_results
  rw [bias_after]
  rfl

/-! ## The result -/

/-- The result buffer's last contents are the layer's output array. -/
theorem result_eq (c : Dev nD) :
    W5 m ρ c (Proc.devRef .tc main_v7)
      = lin (m ((c : Thread nD τ).loc main_arg0)) (m ((c : Thread nD τ).loc main_arg1)) (m ((c : Thread nD τ).loc main_arg2))
          (m ((c : Thread nD τ).loc main_arg3)) (m ((c : Thread nD τ).loc main_arg4)) := by
  have e7 : W5 m ρ c (Proc.devRef .tc main_v7)
      = shapeCast S4x2048x16384 (W4 m ρ c (Proc.devRef .tc main_v6)) shapeCasts_S8192x16384_S4x2048x16384 := by
    show StableHlo.after hostOps2 (W4 m ρ c) (Proc.devRef .tc main_v7) = _
    after_results
    rfl
  have e6 : W4 m ρ c (Proc.devRef .tc main_v6)
      = mmBias (V3 m ρ c main_v4) (V3 m ρ c main_v2) (V3 m ρ c main_v5) :=
    (W4_arr m ρ c 3).trans (mm_final (V3 m ρ) c)
  rw [e7, e6, entry1_x, entry1_w, entry1_bias, weight_after]
  exact compose _ _ _ _ _ _ _ _ _ _

/-- Every weakly fair execution of the program terminates without a fault, with the result buffer at the layer's output
    array of the launch contents of the arguments and the arguments unchanged. -/
theorem run : θ_run defs (onTc (τ := τ) (main (F := Ideal))) ⟨m, fun _ => 0, ρ⟩ (fun r => ∀ c : Dev nD,
      r.2.mem ((c.tc : Thread nD τ).loc main_v7)
        = lin (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_named m ρ)

end Cert.KernelIdeal.Hand

end
-- ==== Proof.lean ====
/-
  A quantized linear layer, as two kernels, against its plain formulation.

  The layer is `out[b, s, o] = Σ_k x[b, s, k] · (q[o, k] − zp[o]) · scale[o] + bias[o]`.  The kernel program first
  dequantizes the weight row block by row block, then multiplies the flattened activations by it tile by tile, each tile
  over all 4096 features at once, and adds the bias; the reference builds the same weight with broadcasts and contracts
  with one `dot_general`.  On the extended reals the changes of float format are the identity and both programs form,
  at every output entry, the same sum of the same 4096 products plus the same bias entry, so no law of arithmetic is
  needed to join them — only where each entry of each intermediate array comes from.  The finiteness of the inputs is
  not used.

  The frames of the two kernel programs are the generated ones; the reference's frame is its generated run with the
  result dropped; the idealization rewrote nothing, so there is nothing to preserve.
-/
import proofs.«160178_j63513976373289_2_alg».proof.Defs
import proofs.«160178_j63513976373289_2_alg».proof.Proof.Gen.Kernel
import proofs.«160178_j63513976373289_2_alg».proof.Proof.Gen.Kernel.Skeleton
import proofs.«160178_j63513976373289_2_alg».proof.Proof.Gen.Kernel.Launch
import proofs.«160178_j63513976373289_2_alg».proof.Proof.Gen.Kernel.Points
import proofs.«160178_j63513976373289_2_alg».proof.Proof.Gen.Kernel.Frame
import proofs.«160178_j63513976373289_2_alg».proof.Proof.Gen.KernelIdeal
import proofs.«160178_j63513976373289_2_alg».proof.Proof.Gen.KernelIdeal.Skeleton
import proofs.«160178_j63513976373289_2_alg».proof.Proof.Gen.KernelIdeal.Launch
import proofs.«160178_j63513976373289_2_alg».proof.Proof.Gen.KernelIdeal.Points
import proofs.«160178_j63513976373289_2_alg».proof.Proof.Gen.KernelIdeal.Frame
import proofs.«160178_j63513976373289_2_alg».proof.Proof.Gen.ReferenceIdeal
import proofs.«160178_j63513976373289_2_alg».proof.Proof.Gen.Pre_finite_inputs
import proofs.«160178_j63513976373289_2_alg».proof.Proof.Gen.ReferenceIdeal.Run
import proofs.«160178_j63513976373289_2_alg».proof.Proof.Gen.ReferenceIdeal.Read
import proofs.«160178_j63513976373289_2_alg».proof.Proof.RefSide
import proofs.«160178_j63513976373289_2_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both idealized programs end with the layer's output array of
    those arguments in their result buffers. -/
theorem algebraic : Cert.algebraic_KernelIdeal_ReferenceIdeal := by
  intro m ρ m' ρ' _ hagree
  refine ⟨fun c => Cert.QLinear.lin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
